-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S2048x2048 .f32) (main_arg3 : FVec F S1x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S2048x2x2048 : Shape := ⟨3, ![2048, 2, 2048]⟩
abbrev S4096x2048 : Shape := ⟨2, ![4096, 2048]⟩
abbrev S4096x2048x2 : Shape := ⟨3, ![4096, 2048, 2]⟩
abbrev S_ : Shape := ⟨0, ![]⟩
abbrev S4096 : Shape := ⟨1, ![4096]⟩
abbrev S8192x4096 : Shape := ⟨2, ![8192, 4096]⟩
abbrev S2048x1024 : Shape := ⟨2, ![2048, 1024]⟩

abbrev nBuf : Space → Nat
  | .hbm => 23
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S2048x2048, .f32⟩
  | .hbm, ⟨3, _⟩ => ⟨S1x4096, .f32⟩
  | .hbm, ⟨4, _⟩ => ⟨S2048x2x2048, .f32⟩
  | .hbm, ⟨5, _⟩ => ⟨S4096x2048, .f32⟩
  | .hbm, ⟨6, _⟩ => ⟨S4096x2048x2, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S8192x4096, .f32⟩
  | .hbm, ⟨20, _⟩ => ⟨S8192x4096, .bf16⟩
  | .hbm, ⟨21, _⟩ => ⟨S8192x4096, .f32⟩
  | .hbm, ⟨22, _⟩ => ⟨S4x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x2048, .f32⟩
  | .local _ .vmem, ⟨5, _⟩ => ⟨S2048x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S2048x2048_S2048x2x2048_0_2 : S2048x2048.BroadcastsInDim S2048x2x2048 (![0, 2] : Fin 2 → Fin S2048x2x2048.rank)
  shapeCasts_S2048x2x2048_S4096x2048 : S2048x2x2048.ShapeCasts S4096x2048
  bcast_S4096x2048_S4096x2048x2_0_1 : S4096x2048.BroadcastsInDim S4096x2048x2 (![0, 1] : Fin 2 → Fin S4096x2048x2.rank)
  shapeCasts_S4096x2048x2_S4096x4096 : S4096x2048x2.ShapeCasts S4096x4096
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  inb_S2048x2048_S2048x2048_0_0 : ∀ a, (![0, 0] : Fin 2 → Nat) a + S2048x2048.size a ≤ S2048x2048.size a
  h_S2048x2048 : 0 < S2048x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S2048x2048_S2048x2048 : S2048x2048.ShapeCasts S2048x2048
  shapeCasts_S8192x4096_S4x2048x4096 : S8192x4096.ShapeCasts S4x2048x4096
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x4096.size a
  hwx0_2 : ∀ i : grid0.Coords, EltTy.bits .f32 = 32 ∨ (Rect.block (s := S8192x4096) S2048x2048.size (cc0_transform_2 i) (hinb0_2 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_v12) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S2048x2048 : Shape := ⟨2, ![2048, 2048]⟩
abbrev S1x4096 : Shape := ⟨2, ![1, 4096]⟩
abbrev S2048x2x2048 : Shape := ⟨3, ![2048, 2, 2048]⟩
abbrev S4096x2048 : Shape := ⟨2, ![4096, 2048]⟩
abbrev S4096x2048x2 : Shape := ⟨3, ![4096, 2048, 2]⟩
abbrev S_ : Shape := ⟨0, ![]⟩
abbrev S4096 : Shape := ⟨1, ![4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S2048x2048, .f32⟩
  | .hbm, ⟨3, _⟩ => ⟨S1x4096, .f32⟩
  | .hbm, ⟨4, _⟩ => ⟨S2048x2x2048, .f32⟩
  | .hbm, ⟨5, _⟩ => ⟨S4096x2048, .f32⟩
  | .hbm, ⟨6, _⟩ => ⟨S4096x2048x2, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S2048x2048_S2048x2x2048_0_2 : S2048x2048.BroadcastsInDim S2048x2x2048 (![0, 2] : Fin 2 → Fin S2048x2x2048.rank)
  shapeCasts_S2048x2x2048_S4096x2048 : S2048x2x2048.ShapeCasts S4096x2048
  bcast_S4096x2048_S4096x2048x2_0_1 : S4096x2048.BroadcastsInDim S4096x2048x2 (![0, 1] : Fin 2 → Fin S4096x2048x2.rank)
  shapeCasts_S4096x2048x2_S4096x4096 : S4096x2048x2.ShapeCasts S4096x4096
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Base.lean ====
/-
  The common root of the value proof's modules: the three programs' generated legs and the library files the proof cites.
  Every later module of the proof imports this one, so that they form one chain.
-/
import proofs.«136402_j8143257994015_2_alg».proof.Defs
import proofs.«136402_j8143257994015_2_alg».proof.Proof.Gen.Kernel.Frame
import proofs.«136402_j8143257994015_2_alg».proof.Proof.Gen.KernelIdeal.Frame
import proofs.«136402_j8143257994015_2_alg».proof.Proof.Gen.ReferenceIdeal.Run
import proofs.«136402_j8143257994015_2_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws
-- ==== Proof.Pieces.lean ====
/-
  What each of the body's two control cases leaves in the output block's staging buffer, as a value.
  At the first step of a reduction (the K-coordinate is 0) the body stores the zero block, reads it back, and stores
  "accumulator + A·Bᵀ" over it: the block ends at the body's arithmetic applied to the two input blocks and the zero
  block. At every other step it reads what the step before left and stores the same arithmetic over it. Both hold for
  any float values: only the stores' rectangles (the whole block, at offset zero) are used.
-/
import proofs.«136402_j8143257994015_2_alg».proof.Proof.Base

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every access of the body: the block's origin. -/
theorem origin : (![0, 0] : Fin 2 → Nat) = fun _ => 0 := funext fun a => by fin_cases a <;> rfl

/-- A later step of a reduction: the block, holding `acc`, ends at the body's arithmetic of the two input blocks and `acc`. -/
theorem later_step (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S2048x2048 .f32) (h5 : a5.IsWhole)
    (hc : ¬cond0_0 i) (x0 x1 : Vec F S2048x1024 .bf16) (acc : Vec F S2048x2048 .f32) :
    out0_B_2 c i a3 h3 a4 h4 a5 h5 hc x0 x1 acc = k0_pay2 x0 x1 acc := by
  unfold out0_B_2
  rw [View.read_writes_eq_canon _ _ _ (cover0_B_2 c i a3 h3 a4 h4 a5 h5 hc x0 x1 acc)]
  unfold kernelRun0_B
  dsimp only
  rw [View.canon_unit_zero origin]
  simp only [View.readAt_eq_ld, h3.read_unread, h4.read_unread, h5.read_unread,
    View.ld_unit_zero (S := S2048x1024) origin, View.ld_unit_zero (S := S2048x2048) origin]

/-- The first step of a reduction: the block ends at the body's arithmetic of the two input blocks and the zero block
    the body has just stored. -/
theorem first_step (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S2048x2048 .f32) (h5 : a5.IsWhole)
    (hc : cond0_0 i) (x0 x1 : Vec F S2048x1024 .bf16) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S2048x2048) origin, View.readCov_unit_zero (S := S2048x2048) _ origin]
  simp only [View.readAt_eq_ld, h3.read_unread, h4.read_unread, View.ld_unit_zero (S := S2048x1024) origin]

end Cert.KernelIdeal.Pieces

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.BodyAt.lean ====
/-
  The body's arithmetic read at one entry, on the extended reals. With `A` the block of the left operand (2048 rows,
  1024 columns), `B` the block of the right operand (2048 rows, 1024 columns) and `acc` the output block as the body
  finds it, the body stores `acc + A·Bᵀ`: entry `(r, q)` is `acc (r, q) + Σ_kk A (r, kk) · B (q, kk)`. The two identity
  casts of the loaded blocks drop out, and the product into the zero accumulator is the plain sum. The block the first
  step of a reduction stores is zero at every entry.
-/
import proofs.«136402_j8143257994015_2_alg».proof.Proof.Pieces
import proofs.«136402_j8143257994015_2_alg».proof.Proof.LibTransposedMatmul

noncomputable section

open scoped BigOperators
open Idealize.ShloMosaic Idealize.ShloMosaic.TcCoe Idealize.ShloMosaic.ValueIdx

namespace Cert.KernelIdeal.BodyAt

open Cert.KernelIdeal Cert.KernelIdeal.Gen

/-- The body's contraction — both operands on their columns — is the library's record of that name. -/
theorem dims_eq : dot_S2048x1024_S2048x1024_S2048x2048_1_1_0_0_n_n = DotDims.transposedRhs 2048 1024 2048 := rfl

/-- The zero block at an entry. -/
theorem zero_block_at (r q : Fin 2048) : (k0_pay1 (F := Ideal) (ix2 r q) : EReal) = 0 :=
  Ideal.ofBits_zero_f32

/-- The body's store at entry `(r, q)`: the accumulator's entry plus row `r` of `A` against row `q` of `B`. -/
theorem body_at (A B : Vec Ideal S2048x1024 .bf16) (acc : Vec Ideal S2048x2048 .f32) (r q : Fin 2048) :
    (k0_pay2 (F := Ideal) A B acc (ix2 r q) : EReal)
      = (acc (ix2 r q) : EReal) + ∑ kk : Fin 1024, (A (ix2 r kk) : EReal) * (B (ix2 q kk) : EReal) := by
  unfold k0_pay2
  refine (addf_apply (φ := .f32) _ _ (ix2 r q)).trans ?_
  refine congrArg₂ (· + ·) (congrFun (shapeCast_self acc _) _) ?_
  rw [shapeCast_self A, shapeCast_self B, dims_eq]
  exact Cert.LibTransposedMatmul.matmul_zero_apply none A B r q

end Cert.KernelIdeal.BodyAt

end
-- ==== Proof.LibBlockSum.lean ====
/-
  A finite sum over `Fin n` with `n = a * b` regrouped into `a` consecutive blocks of length `b`: the sum of the
  block sums. It holds in every commutative additive monoid, in particular on the extended reals, where
  it needs no finiteness: only associativity and commutativity of `+` are used.
-/
import Mathlib.Algebra.BigOperators.Fin
import Mathlib.Logic.Equiv.Fin.Basic

namespace Cert.LibBlockSum

open Finset

/-- Position `j` of block `i` among `a` blocks of length `b`: `i * b + j`. -/
def pos {a b n : ℕ} (h : a * b = n) (i : Fin a) (j : Fin b) : Fin n :=
  ⟨i.val * b + j.val, by
    subst h
    have h1 : i.val * b + j.val < (i.val + 1) * b := by
      rw [Nat.add_one_mul]; exact Nat.add_lt_add_left j.isLt _
    exact lt_of_lt_of_le h1 (Nat.mul_le_mul_right b i.isLt)⟩

@[simp] theorem pos_val {a b n : ℕ} (h : a * b = n) (i : Fin a) (j : Fin b) :
    (pos h i j).val = i.val * b + j.val := rfl

/-- The sum over all positions is the sum over the blocks of each block's sum. -/
theorem sum_blocks {M : Type*} [AddCommMonoid M] {a b n : ℕ} (h : a * b = n) (f : Fin n → M) :
    ∑ k : Fin n, f k = ∑ i : Fin a, ∑ j : Fin b, f (pos h i j) := by
  subst h
  rw [← Fintype.sum_prod_type' (fun i j => f (pos rfl i j))]
  refine (Equiv.sum_comp (finProdFinEquiv (m := a) (n := b)) f).symm.trans ?_
  refine Fintype.sum_congr _ _ fun p => congrArg f (Fin.ext ?_)
  show (p.2 : ℕ) + b * (p.1 : ℕ) = (p.1 : ℕ) * b + (p.2 : ℕ)
  rw [Nat.mul_comm, Nat.add_comm]

end Cert.LibBlockSum
-- ==== Proof.Spec.lean ====
/-
  The specification, over literal shapes and extended reals, and the one law the proof needs.

  `X` is the activation matrix, 8192 rows by 4096 columns; `W` the weight matrix, 4096 rows (output features) by 4096
  columns. The result at row `R` and output feature `O` is row `R` of `X` against row `O` of `W`:
  `Σ_k X (R, k) · W (O, k)` over all 4096 columns. The kernel reaches it in four steps of 1024 columns each, adding each
  step's partial product to what the steps before left; the sum over the four column blocks of the block sums is the
  whole sum, in any commutative monoid.

  A grid point is numbered `n = 8·i + 4·j + k` with `i < 4` the row block (2048 rows), `j < 2` the block of output
  features (2048 of them) and `k < 4` the column block: `rowOf`, `featOf` and `kcol` are the coordinates, in the whole
  matrices, of an entry of the point's blocks.
-/
import proofs.«136402_j8143257994015_2_alg».proof.Proof.LibBlockSum
import Idealize.ShloMosaic.Lib.ValueIdx

noncomputable section

open scoped BigOperators
open Idealize.ShloMosaic Idealize.ShloMosaic.ValueIdx Finset

namespace Cert.Spec

/-- A matrix of extended reals with `a` rows and `b` columns. -/
abbrev Mx (a b : ℕ) := (⟨2, ![a, b]⟩ : Shape).Idx → EReal

/-- Row `R` of `X` against row `O` of `W`, over all columns. -/
def rowDot (X : Mx 8192 4096) (W : Mx 4096 4096) (R : Fin 8192) (O : Fin 4096) : EReal :=
  ∑ k : Fin 4096, X (ix2 R k) * W (ix2 O k)

/-- Column `kk` of column block `kb` (four blocks of 1024 columns; the block number is read modulo 4). -/
def kcol (kb : ℕ) (kk : Fin 1024) : Fin 4096 :=
  ⟨kb % 4 * 1024 + kk.val, by have := kk.isLt; have := Nat.mod_lt kb (by decide : 0 < 4); omega⟩

/-- Row `r` of the row block of grid point `n`. -/
def rowOf (n : ℕ) (r : Fin 2048) : Fin 8192 :=
  ⟨n / 8 % 4 * 2048 + r.val, by have := r.isLt; have := Nat.mod_lt (n / 8) (by decide : 0 < 4); omega⟩

/-- Output feature `q` of the feature block of grid point `n`. -/
def featOf (n : ℕ) (q : Fin 2048) : Fin 4096 :=
  ⟨n / 4 % 2 * 2048 + q.val, by have := q.isLt; have := Nat.mod_lt (n / 4) (by decide : 0 < 2); omega⟩

theorem kcol_congr {kb kb' : ℕ} (h : kb % 4 = kb' % 4) : kcol kb = kcol kb' :=
  funext fun kk => Fin.ext (by show kb % 4 * 1024 + kk.val = kb' % 4 * 1024 + kk.val; rw [h])

/-- The same sum over the 1024 columns of block `kb` only. -/
def blockDot (X : Mx 8192 4096) (W : Mx 4096 4096) (R : Fin 8192) (O : Fin 4096) (kb : ℕ) : EReal :=
  ∑ kk : Fin 1024, X (ix2 R (kcol kb kk)) * W (ix2 O (kcol kb kk))

theorem blockDot_congr (X : Mx 8192 4096) (W : Mx 4096 4096) (R : Fin 8192) (O : Fin 4096) {kb kb' : ℕ}
    (h : kb % 4 = kb' % 4) : blockDot X W R O kb = blockDot X W R O kb' := by
  unfold blockDot; rw [kcol_congr h]

/-- The whole sum is the sum of the four block sums. -/
theorem rowDot_eq_blocks (X : Mx 8192 4096) (W : Mx 4096 4096) (R : Fin 8192) (O : Fin 4096) :
    rowDot X W R O = ∑ kb ∈ range 4, blockDot X W R O kb := by
  unfold rowDot
  rw [Cert.LibBlockSum.sum_blocks (a := 4) (b := 1024) (by decide : 4 * 1024 = 4096),
    ← Fin.sum_univ_eq_sum_range (fun kb => blockDot X W R O kb) 4]
  refine Fintype.sum_congr _ _ fun kb => Fintype.sum_congr _ _ fun kk => ?_
  have e : Cert.LibBlockSum.pos (by decide : 4 * 1024 = 4096) kb kk = kcol kb.val kk := Fin.ext (by
    show kb.val * 1024 + kk.val = kb.val % 4 * 1024 + kk.val
    rw [Nat.mod_eq_of_lt kb.isLt])
  rw [e]

/-- The result as one [8192, 4096] array. -/
def out2d (X : Mx 8192 4096) (W : Mx 4096 4096) : Mx 8192 4096 :=
  fun i => rowDot X W ⟨(i 0).val, (i 0).isLt⟩ ⟨(i 1).val, (i 1).isLt⟩

theorem out2d_ix2 (X : Mx 8192 4096) (W : Mx 4096 4096) (R : Fin 8192) (O : Fin 4096) :
    out2d X W (ix2 R O) = rowDot X W R O := rfl

end Cert.Spec

end
-- ==== Proof.Accum.lean ====
/-
  What the output block's staging buffer holds after each grid point, on the extended reals.

  The grid points are visited in order `n = 8·i + 4·j + k`. At point `n` the left window's block is rows `rowOf n ·` and
  columns `kcol n ·` of the activation array `X`, the right window's block is rows `featOf n ·` and columns `kcol n ·`
  of the weight array `W` (both arrays as the region finds them), and the output block — rows `rowOf n ·`, features
  `featOf n ·` — is kept in its staging buffer over the four points of one `(i, j)`. After point `n` its entry `(r, q)`
  is the sum of the block sums over the column blocks `0 … n mod 4`: at `k = 0` the body starts from the zero block, at
  `k > 0` it adds one more block sum to what the point before left. By induction on the point.
-/
import proofs.«136402_j8143257994015_2_alg».proof.Proof.BodyAt
import proofs.«136402_j8143257994015_2_alg».proof.Proof.Spec

noncomputable section

open scoped BigOperators
open Idealize.ShloMosaic Idealize.ShloMosaic.TcCoe Idealize.ShloMosaic.ValueIdx Idealize.SL.Sem Finset

namespace Cert.KernelIdeal.Accum

open Cert.KernelIdeal Cert.KernelIdeal.Gen Cert.Spec

variable (m : (ℓ : Loc nD τ sig) → Buf (Elt Ideal) ℓ)

/-- The activation array and the weight array as the region finds them. -/
abbrev X (c : Dev nD) : Mx 8192 4096 := V m c main_v12
abbrev W (c : Dev nD) : Mx 4096 4096 := V m c main_v10

/-- The printed index maps, decided over the grid: the left window moves with the row block and the column block, the
    right window with the feature block and the column block, the output window with the row block and the feature block. -/
theorem index_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = t.val / 8 ∧ win0_2.index t (1 : Fin 2) = t.val / 4 % 2 :=
  (by decide +kernel : ∀ t : Fin grid0.N, _)

/-- The two input windows' blocks at point `t`, typed at their literal shape. -/
abbrev lblk (c : Dev nD) (t : Fin cfg0.N) : Vec Ideal S2048x1024 .bf16 := iblk m c 0 t
abbrev rblk (c : Dev nD) (t : Fin cfg0.N) : Vec Ideal S2048x1024 .bf16 := iblk m c 1 t

/-- The left window's block at point `t`, at an entry. -/
theorem left_block_at (c : Dev nD) (t : Fin cfg0.N) (r : Fin 2048) (kk : Fin 1024) :
    (lblk m c t (ix2 r kk) : EReal) = X m c (ix2 (rowOf t.val r) (kcol t.val kk)) := by
  obtain ⟨e0, e1, -⟩ := index_facts t
  have hN : t.val < 32 := lt_of_lt_of_eq t.isLt N_0
  unfold lblk iblk
  rw [View.read_apply]
  show V m c main_v12 _ = V m c main_v12 _
  congr 1
  funext a
  apply Fin.ext
  match a with
  | ⟨0, _⟩ => show win0_0.index t (0 : Fin 2) * 2048 + 1 * r.val = t.val / 8 % 4 * 2048 + r.val; rw [e0]; omega
  | ⟨1, _⟩ => show win0_0.index t (1 : Fin 2) * 1024 + 1 * kk.val = t.val % 4 * 1024 + kk.val; rw [e1]; omega

/-- The right window's block at point `t`, at an entry. -/
theorem right_block_at (c : Dev nD) (t : Fin cfg0.N) (q : Fin 2048) (kk : Fin 1024) :
    (rblk m c t (ix2 q kk) : EReal) = W m c (ix2 (featOf t.val q) (kcol t.val kk)) := by
  obtain ⟨-, -, e2, e3, -⟩ := index_facts t
  have hN : t.val < 32 := lt_of_lt_of_eq t.isLt N_0
  unfold rblk iblk
  rw [View.read_apply]
  show V m c main_v10 _ = V m c main_v10 _
  congr 1
  funext a
  apply Fin.ext
  match a with
  | ⟨0, _⟩ => show win0_1.index t (0 : Fin 2) * 2048 + 1 * q.val = t.val / 4 % 2 * 2048 + q.val; rw [e2]; omega
  | ⟨1, _⟩ => show win0_1.index t (1 : Fin 2) * 1024 + 1 * kk.val = t.val % 4 * 1024 + kk.val; rw [e3]; omega

/-- The product of the two blocks of point `t` at entry `(r, q)` is the block sum of the point's column block. -/
theorem step_dot (c : Dev nD) (t : Fin cfg0.N) (r q : Fin 2048) :
    (∑ kk : Fin 1024, (lblk m c t (ix2 r kk) : EReal) * (rblk m c t (ix2 q kk) : EReal))
      = blockDot (X m c) (W m c) (rowOf t.val r) (featOf t.val q) t.val := by
  unfold blockDot
  refine Finset.sum_congr rfl fun kk _ => ?_
  rw [left_block_at m c t r kk, right_block_at m c t q kk]

/-- A point with `k = 0`: the buffer ends at the point's block sum. -/
theorem first_at (c : Dev nD) (t : Fin cfg0.N) (h0 : t.val % 4 = 0) (r q : Fin 2048) :
    (outsAt0 m c t.val t.isLt (ix2 r q) : EReal) = blockDot (X m c) (W m c) (rowOf t.val r) (featOf t.val q) t.val := by
  rw [outsAt0_A m c t h0, Pieces.first_step]
  refine (BodyAt.body_at (lblk m c t) (rblk m c t) _ r q).trans ?_
  rw [BodyAt.zero_block_at, zero_add]
  exact step_dot m c t r q

/-- A point with `k > 0`: the buffer ends at what the point before left plus the point's block sum. -/
theorem later_at (c : Dev nD) (t : Fin cfg0.N) (h0 : ¬t.val % 4 = 0) (r q : Fin 2048) :
    (outsAt0 m c t.val t.isLt (ix2 r q) : EReal)
      = (outsAt0 m c (t.val - 1) (Nat.lt_of_le_of_lt (Nat.sub_le _ _) t.isLt) (ix2 r q) : EReal)
        + blockDot (X m c) (W m c) (rowOf t.val r) (featOf t.val q) t.val := by
  rw [outsAt0_B m c t h0, Pieces.later_step]
  refine (BodyAt.body_at (lblk m c t) (rblk m c t) _ r q).trans ?_
  rw [step_dot m c t r q]

/-- After point `n` the buffer's entry `(r, q)` is the sum of the block sums over the column blocks `0 … n mod 4`. -/
theorem acc_at (c : Dev nD) : ∀ (n : ℕ) (hn : n < cfg0.N) (r q : Fin 2048),
    (outsAt0 m c n hn (ix2 r q) : EReal)
      = ∑ kb ∈ range (n % 4 + 1), blockDot (X m c) (W m c) (rowOf n r) (featOf n q) kb
  | 0, hn, r, q => by
    refine (first_at m c ⟨0, hn⟩ rfl r q).trans ?_
    show blockDot (X m c) (W m c) (rowOf 0 r) (featOf 0 q) 0 = _
    rw [Nat.zero_mod, zero_add, Finset.sum_range_one]
  | n + 1, hn, r, q => by
    by_cases h0 : (n + 1) % 4 = 0
    · refine (first_at m c ⟨n + 1, hn⟩ h0 r q).trans ?_
      show blockDot (X m c) (W m c) (rowOf (n + 1) r) (featOf (n + 1) q) (n + 1) = _
      rw [h0, zero_add, Finset.sum_range_one]
      exact blockDot_congr _ _ _ _ (by rw [h0])
    · refine (later_at m c ⟨n + 1, hn⟩ h0 r q).trans ?_
      show (outsAt0 m c n _ (ix2 r q) : EReal) + blockDot (X m c) (W m c) (rowOf (n + 1) r) (featOf (n + 1) q) (n + 1) = _
      have e1 : rowOf (n + 1) r = rowOf n r :=
        Fin.ext (by show (n + 1) / 8 % 4 * 2048 + r.val = n / 8 % 4 * 2048 + r.val; omega)
      have e2 : featOf (n + 1) q = featOf n q :=
        Fin.ext (by show (n + 1) / 4 % 2 * 2048 + q.val = n / 4 % 2 * 2048 + q.val; omega)
      have e3 : (n + 1) % 4 = n % 4 + 1 := by omega
      rw [acc_at c n (Nat.lt_of_succ_lt hn) r q, e1, e2, e3, Finset.sum_range_succ _ (n % 4 + 1)]
      exact congrArg _ (blockDot_congr _ _ _ _ (by omega))

end Cert.KernelIdeal.Accum

end
-- ==== Proof.HostSide.lean ====
/-
  The two operand arrays of the region, as the host operations before it leave them, on the extended reals.

  The weight array is the weight matrix the host computes from three of the arguments — the adapter repeated twice
  along both axes and added to the frozen weight, each column divided by its Euclidean norm and scaled by the magnitude
  row — through the same operations, in the same order, as the reference program computes it; the last conversion to
  a narrower float format is the identity on the extended reals. The activation array is the first argument with its
  two leading axes merged, again through an identity conversion.
-/
import proofs.«136402_j8143257994015_2_alg».proof.Proof.Accum

noncomputable section

open Idealize.ShloMosaic Idealize.ShloMosaic.TcCoe Idealize.ShloMosaic.ValueIdx Idealize.SL.Sem

namespace Cert.KernelIdeal.HostSide

open Cert.KernelIdeal Cert.KernelIdeal.Gen Cert.Spec Cert.KernelIdeal.Accum

variable (m : (ℓ : Loc nD τ sig) → Buf (Elt Ideal) ℓ)

/-- The weight array the region finds is the reference's weight matrix of the three arguments. -/
theorem weight_eq (c : Dev nD) :
    W m c = Cert.ReferenceIdeal.Read.val_main_v9 (F := Ideal) (m ((c : Thread nD τ).loc main_arg1))
      (m ((c : Thread nD τ).loc main_arg2)) (m ((c : Thread nD τ).loc main_arg3)) := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append,
    List.nil_append]
  after_results
  rfl

/-- The activation array the region finds is the first argument with its two leading axes merged. -/
theorem activation_eq (c : Dev nD) :
    X m c = shapeCast S8192x4096 (m ((c : Thread nD τ).loc main_arg0)) shapeCasts_S4x2048x4096_S8192x4096 := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append,
    List.nil_append]
  after_results
  rfl

end Cert.KernelIdeal.HostSide

end
-- ==== Proof.Final.lean ====
/-
  The kernel's run, read: the result is the row-against-row sums, re-laid.

  The output block of a pair (row block, feature block) is written back once, after the last of its four column
  steps, and then holds the whole sum `Σ_k X (R, k) · W (O, k)` at every entry: the four block sums are the whole sum.
  The eight blocks tile the [8192, 4096] output array, so the array ends at `out2d X W`; the reshape after the region
  splits its rows into [4, 2048]. The arguments end unchanged.
-/
import proofs.«136402_j8143257994015_2_alg».proof.Proof.HostSide

noncomputable section

open scoped BigOperators
open Idealize.ShloMosaic Idealize.ShloMosaic.TcCoe Idealize.ShloMosaic.ValueIdx Idealize.SL.Sem Finset
open Idealize.ShloMosaic.Pipeline (Dat)

namespace Cert.KernelIdeal.Final

open Cert.KernelIdeal Cert.KernelIdeal.Gen Cert.Spec Cert.KernelIdeal.Accum

variable (m : (ℓ : Loc nD τ sig) → Buf (Elt Ideal) ℓ) (ρ : Dev nD → PrngReg)

/-- The [8192, 4096] array of row-against-row sums of the operand arrays the region finds. -/
abbrev out13 (c : Dev nD) : Buf (Elt Ideal) ((c : Thread nD τ).loc main_v13) := out2d (X m c) (W m c)

/-- An entry of the output block of point `t`, in the whole array. -/
theorem out_entry (t : Fin cfg0.N) (r q : Fin 2048) :
    ((cfg0.win 2).blk t).view.emb (ix2 r q) = ix2 (rowOf t.val r) (featOf t.val q) := by
  obtain ⟨-, -, -, -, e4, e5⟩ := index_facts t
  have hN : t.val < 32 := lt_of_lt_of_eq t.isLt N_0
  funext a
  apply Fin.ext
  match a with
  | ⟨0, _⟩ => show win0_2.index t (0 : Fin 2) * 2048 + 1 * r.val = t.val / 8 % 4 * 2048 + r.val; rw [e4]; omega
  | ⟨1, _⟩ => show win0_2.index t (1 : Fin 2) * 2048 + 1 * q.val = t.val / 4 % 2 * 2048 + q.val; rw [e5]; omega

/-- What a write-back writes: the block of the whole sums. -/
theorem flushed_eq (c : Dev nD) (t : Fin cfg0.N) (hf : (cfg0.win 2).flush t = true) :
    (dats m 0 c).flushed 2 t = ((cfg0.win 2).blk t).view.read (Elt Ideal) (out13 m c) := by
  have h3 : t.val % 4 = 3 := (flush0_2 t).mp hf
  show (cfg0.win 2).cut (grid0.coords t) ((dats m 0 c).after 2 t) = _
  rw [after0_2]
  refine funext fun (j : S2048x2048.Idx) => ?_
  obtain ⟨r, q, rfl⟩ : ∃ (r q : Fin 2048), j = ix2 r q := ⟨j 0, j 1, eq_ix2 j⟩
  rw [View.read_apply, out_entry t r q]
  show (outsAt0 m c t.val t.isLt (ix2 r q) : EReal) = rowDot (X m c) (W m c) (rowOf t.val r) (featOf t.val q)
  rw [acc_at m c t.val t.isLt r q, h3, rowDot_eq_blocks]

/-- Every entry of the output array is in the block some write-back writes. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 32 := N_0
  have hlt : (i 0).val / 2048 * 8 + (i 1).val / 2048 * 4 + 3 < cfg0.N := by rw [hN]; omega
  refine ⟨⟨_, hlt⟩, (flush0_2 _).mpr (by show ((i 0).val / 2048 * 8 + (i 1).val / 2048 * 4 + 3) % 4 = 3; omega), ?_⟩
  obtain ⟨-, -, -, -, e4, e5⟩ := index_facts ⟨_, hlt⟩
  show i ∈ ((View.whole main_v13).slice (win0_2.rect ⟨_, hlt⟩)).set
  rw [View.set_slice_whole, Rect.mem_set_unit]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e4]; dsimp only; omega
  | ⟨1, _⟩ =>
    show win0_2.index ⟨_, hlt⟩ (1 : Fin 2) * 2048 ≤ (i 1).val ∧ (i 1).val < win0_2.index ⟨_, hlt⟩ (1 : Fin 2) * 2048 + 2048
    rw [e5]; dsimp only; omega

/-- The output array after the region. -/
theorem final13 (c : Dev nD) : (dats m 0 c).arrAt 2 cfg0.N = out13 m c :=
  (dats m 0 c).arrAt_eq_of_cover 2 (out13 m c) (flushed_eq m c) cover

/-- The result: the output array with its rows split into [4, 2048]. -/
abbrev result (c : Dev nD) : Buf (Elt Ideal) ((c : Thread nD τ).loc main_v14) :=
  shapeCast S4x2048x4096 (out13 m c) shapeCasts_S8192x4096_S4x2048x4096

/-- The reshape after the region reads the output array the region left. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have hw : Pipeline.withArrays (cfgs 0).spec c (V0 m c) (fun w => (dats m 0 c).arrAt w (cfgs 0).N)
      (Proc.devRef .tc main_v13) = out13 m c :=
    (Pipeline.withArrays_arr spec0 launch0.win.arr_inj c _ _ 2).trans (final13 m c)
  rw [hw]
  rfl

/-- The run, read: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.RefSide.lean ====
/-
  The reference's result is the same function of the arguments.

  The reference contracts the last axis of the activations [4, 2048, 4096] with the columns of the weight matrix:
  its result at `(b, s, o)` is `Σ_k x (b, s, k) · W (o, k)`. The kernel's is the row-against-row sum of the merged
  activations at row `2048·b + s`, re-laid: merging the two leading axes and splitting them again meet at the same
  entry, so the two sums agree term by term.
-/
import proofs.«136402_j8143257994015_2_alg».proof.Proof.Final
import proofs.«136402_j8143257994015_2_alg».proof.Proof.LibFlatten

noncomputable section

open scoped BigOperators
open Idealize.ShloMosaic Idealize.ShloMosaic.TcCoe Idealize.ShloMosaic.ValueIdx

namespace Cert.RefSide

open Cert.ReferenceIdeal Cert.ReferenceIdeal.Gen Cert.ReferenceIdeal.Read Cert.Spec

/-- The reference's result, for any activations `x` and the weight matrix of the other three arguments, is the
    specification's row sums of the merged activations, with the rows split into [4, 2048]. -/
theorem reference_eq (x : (⟨S4x2048x4096, .f32⟩ : BufTy).Contents (Elt Ideal))
    (a1 : (⟨S4096x4096, .f32⟩ : BufTy).Contents (Elt Ideal)) (a2 : (⟨S2048x2048, .f32⟩ : BufTy).Contents (Elt Ideal))
    (a3 : (⟨S1x4096, .f32⟩ : BufTy).Contents (Elt Ideal))
    (h1 : S4x2048x4096.ShapeCasts ⟨2, ![8192, 4096]⟩) (h2 : (⟨2, ![8192, 4096]⟩ : Shape).ShapeCasts S4x2048x4096) :
    val_main_v10 (F := Ideal) x a1 a2 a3
      = shapeCast S4x2048x4096 (out2d (shapeCast ⟨2, ![8192, 4096]⟩ x h1) (val_main_v9 (F := Ideal) a1 a2 a3)) h2 := by
  funext i
  obtain ⟨b, s, o, rfl⟩ : ∃ (b : Fin 4) (s : Fin 2048) (o : Fin 4096), i = ix3 b s o := ⟨i 0, i 1, i 2, eq_ix3 i⟩
  have hR : b.val * 2048 + s.val < 8192 := by have := b.isLt; have := s.isLt; omega
  rw [val_main_v10_apply,
    Cert.LibFlatten.shapeCast_nc_abc_apply (out2d (shapeCast ⟨2, ![8192, 4096]⟩ x h1) (val_main_v9 (F := Ideal) a1 a2 a3))
      h2 b s o ⟨b.val * 2048 + s.val, hR⟩ rfl,
    out2d_ix2]
  unfold rowDot
  refine Finset.sum_congr rfl fun k _ => ?_
  rw [Cert.LibFlatten.shapeCast_abc_nc_apply x h1 b s k ⟨b.val * 2048 + s.val, hR⟩ rfl]
  have el : lidx_main_v10 (ix3 b s o) k = ix3 b s k :=
    funext fun a => Fin.ext (by match a with | ⟨0, _⟩ => rfl | ⟨1, _⟩ => rfl | ⟨2, _⟩ => rfl)
  have er : ridx_main_v10 (ix3 b s o) k = ix2 o k :=
    funext fun a => Fin.ext (by match a with | ⟨0, _⟩ => rfl | ⟨1, _⟩ => rfl)
  rw [el, er]

end Cert.RefSide

end
-- ==== Proof.lean ====
/-
  The proof of `Cert.Claim` (proofs.«136402_j8143257994015_2_alg».proof.Defs).

  Both programs compute, from the same four arguments, the linear layer `y (b, s, o) = Σ_k x (b, s, k) · W (o, k)` with
  the weight matrix `W = mag · (w₀ + adapter) / ‖column‖`: the adapter is the small matrix repeated twice along both axes,
  each column of `w₀ + adapter` is divided by its Euclidean norm and scaled by the magnitude row. Both compute `W` by
  the same host operations in the same order, so on the extended reals the two weight matrices are one term; the
  kernel's two conversions to a narrower float format are the identity there.

  The reference then takes one contraction over the 4096 columns. The kernel merges the two leading axes of `x`, and a
  grid of 4 row blocks × 2 feature blocks × 4 column blocks accumulates, in the output block of each (row block, feature
  block), the four partial products over 1024 columns each, starting from the zero block; the block is written back
  after the fourth. Its entry is therefore `0 + Σ_(4 blocks) Σ_(1024 columns)`, which is the whole sum: a finite sum over
  `Fin (4 · 1024)` regrouped into blocks, true in every commutative monoid — no finiteness of the inputs is used, and
  the precondition is never opened. The eight output blocks tile the [8192, 4096] array, and the reshape after the
  region splits its rows back into [4, 2048], meeting the reference's index `(b, s, o)` at row `2048·b + s`.

  The modules: LibBlockSum (the regrouping law), Spec (the row sums, the column blocks, a grid point's coordinates), Pieces
  (what each control case of the body leaves in the output block), BodyAt (the body's arithmetic at an entry), Accum
  (the output block after each grid point, by induction on the point), HostSide (the operand arrays the region finds),
  Final (the write-backs, the cover, the reshape after the region, the run), RefSide (the reference's result is the
  same function). The three frames are the generated ones; the idealization rewrote nothing, so `preserves` is `True`.
-/
import proofs.«136402_j8143257994015_2_alg».proof.Defs
import proofs.«136402_j8143257994015_2_alg».proof.Proof.Gen.Kernel
import proofs.«136402_j8143257994015_2_alg».proof.Proof.Gen.Kernel.Skeleton
import proofs.«136402_j8143257994015_2_alg».proof.Proof.Gen.Kernel.Launch
import proofs.«136402_j8143257994015_2_alg».proof.Proof.Gen.Kernel.Points
import proofs.«136402_j8143257994015_2_alg».proof.Proof.Gen.Kernel.Frame
import proofs.«136402_j8143257994015_2_alg».proof.Proof.Gen.KernelIdeal
import proofs.«136402_j8143257994015_2_alg».proof.Proof.Gen.KernelIdeal.Skeleton
import proofs.«136402_j8143257994015_2_alg».proof.Proof.Gen.KernelIdeal.Launch
import proofs.«136402_j8143257994015_2_alg».proof.Proof.Gen.KernelIdeal.Points
import proofs.«136402_j8143257994015_2_alg».proof.Proof.Gen.KernelIdeal.Frame
import proofs.«136402_j8143257994015_2_alg».proof.Proof.Gen.ReferenceIdeal
import proofs.«136402_j8143257994015_2_alg».proof.Proof.Gen.ReferenceIdeal.Run
import proofs.«136402_j8143257994015_2_alg».proof.Proof.Gen.ReferenceIdeal.Read
import proofs.«136402_j8143257994015_2_alg».proof.Proof.Gen.Pre_finite_inputs
import proofs.«136402_j8143257994015_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's end equal: the kernel's at the re-laid row
    sums of the operand arrays the region finds, which are the merged activations and the reference's weight matrix;
    the reference's at its contraction of the same activations with the same weight matrix. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v10_eq _ _ _ _).trans ?_
  refine (Cert.RefSide.reference_eq _ _ _ _ Cert.KernelIdeal.Facts₀.shapeCasts_S4x2048x4096_S8192x4096
    Cert.KernelIdeal.Facts₀.shapeCasts_S8192x4096_S4x2048x4096).trans ?_
  show _ = shapeCast Cert.KernelIdeal.S4x2048x4096
    (Cert.Spec.out2d (Cert.KernelIdeal.Accum.X m c) (Cert.KernelIdeal.Accum.W m c)) _
  rw [Cert.KernelIdeal.HostSide.weight_eq m c, Cert.KernelIdeal.HostSide.activation_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
